-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x4096.size a
  hwx0_3 : ∀ i : grid0.Coords, EltTy.bits .f32 = 32 ∨ (Rect.block (s := S8192x4096) S256x1024.size (cc0_transform_3 i) (hinb0_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Entry.lean ====
/-
  What the kernel's one region finds in its operand arrays.

  Before the tiled product is launched the program prepares two of its three operands on the host: the matrix is
  replaced by its sign, entry by entry (−1, 0 or +1), and narrowed to the matrix unit's input format; the bias
  vector of 4096 entries is re-laid as a 1 × 4096 row. The activations are passed as they are. These are the three
  arrays the region's windows read.
-/
import proofs.«176088_j56453050138959_2_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The matrix operand at region entry: the sign of the weight argument, narrowed. -/
theorem matrix_eq (c : Dev nD) :
    (V m c main_v1 : S4096x4096.Idx → F .bf16)
      = truncf .bf16 (Host.sign (m ((c : Thread nD τ).loc main_arg1) : S4096x4096.Idx → F .f32)) bitsLt_bf16_f32 := by
  dsimp only [Gen.V, Gen.hostOps0]
  after_results

/-- The bias operand at region entry: the bias argument as one row. -/
theorem bias_eq (c : Dev nD) :
    (V m c main_v2 : S1x4096.Idx → F .f32)
      = shapeCast S1x4096 (m ((c : Thread nD τ).loc main_arg2) : S4096.Idx → F .f32) shapeCasts_S4096_S1x4096 := by
  dsimp only [Gen.V, Gen.hostOps0]
  after_results
  rfl

end Cert.KernelIdeal.Entry

end
-- ==== Proof.BlockProduct.lean ====
/-
  What the kernel's body computes on one tile, read entry by entry.

  At a grid point the body holds a 256 × 4096 block of activations, a 1024 × 4096 block of the (already binarised)
  matrix and a 1 × 1024 strip of biases, and stores one 256 × 1024 tile: the block product into a zero accumulator,
  plus the bias strip repeated down the rows. Over the extended reals the narrowing of the activations to the
  matrix unit's input format changes nothing, the two shape casts are casts of a shape to itself, and a product
  accumulated into zero is just the sum of the 4096 products. So entry (p, q) of the stored tile is

      Σ_k  xblk[p, k] · wblk[q, k]   +   bblk[0, q].
-/
import proofs.«176088_j56453050138959_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The left operand's row coordinate at output index `i` is `i`'s row: axis 0 of the left block is not contracted. -/
theorem lhs_row (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl

/-- Its feature coordinate is the contraction index. -/
theorem lhs_feat (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q

/-- The right operand's row coordinate at output index `i` is `i`'s COLUMN: the matrix block is read by rows, one
    row per output. -/
theorem rhs_row (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl

/-- Its feature coordinate is the contraction index too. -/
theorem rhs_feat (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- The block product into a zero accumulator, at entry (p, q): the 4096 products of row `p` of the left block with
    row `q` of the right block, summed. -/
theorem product_at (a : FVec Ideal S256x4096 .bf16) (b : FVec Ideal S1024x4096 .bf16) (p : Fin 256) (q : Fin 1024) :
    matmul dot_S256x4096_S1024x4096_S256x1024_1_1_0_0_n_n none a b (constant (F := Ideal) S256x1024 .f32 0x00000000#32) (ix2 p q)
      = ∑ k : Fin 4096, a (ix2 p k) * b (ix2 q k) := by
  refine (Ideal.matmul_constant_zero_apply dot_S256x4096_S1024x4096_S256x1024_1_1_0_0_n_n none a b (ix2 p q)).trans ?_
  rw [← Equiv.sum_comp (ValueIdx.contrEquiv1 dot_S256x4096_S1024x4096_S256x1024_1_1_0_0_n_n 4096 rfl rfl).symm]
  refine Finset.sum_congr rfl fun k _ => ?_
  have hk := ValueIdx.contrEquiv1_symm_val dot_S256x4096_S1024x4096_S256x1024_1_1_0_0_n_n 4096 rfl rfl k
  have el : dot_S256x4096_S1024x4096_S256x1024_1_1_0_0_n_n.lhsIdx (ix2 p q) ((ValueIdx.contrEquiv1 dot_S256x4096_S1024x4096_S256x1024_1_1_0_0_n_n 4096 rfl rfl).symm k) = ix2 p k := funext fun ax => Fin.ext (by
    match ax with
    | ⟨0, _⟩ => exact lhs_row _ _
    | ⟨1, _⟩ => exact (lhs_feat _ _).trans hk)
  have er : dot_S256x4096_S1024x4096_S256x1024_1_1_0_0_n_n.rhsIdx (ix2 p q) ((ValueIdx.contrEquiv1 dot_S256x4096_S1024x4096_S256x1024_1_1_0_0_n_n 4096 rfl rfl).symm k) = ix2 q k := funext fun ax => Fin.ext (by
    match ax with
    | ⟨0, _⟩ => exact rhs_row _ _
    | ⟨1, _⟩ => exact (rhs_feat _ _).trans hk)
  rw [el, er]

/-- THE STORED TILE at entry (p, q), as a function of the three loaded blocks. -/
theorem tile_at (xblk : Vec Ideal S256x4096 .f32) (wblk : Vec Ideal S1024x4096 .bf16) (bblk : Vec Ideal S1x1024 .f32)
    (p : Fin 256) (q : Fin 1024) :
    k0_pay1 (F := Ideal) xblk wblk bblk (ix2 p q)
      = (∑ k : Fin 4096, xblk (ix2 p k) * wblk (ix2 q k)) + bblk (ix2 (0 : Fin 1) q) := by
  dsimp only [k0_pay1]
  refine (ValueIdx.addf_apply _ _ _).trans ?_
  refine congrArg₂ (· + ·) ?_ ?_
  · refine (product_at _ _ p q).trans ?_
    refine Finset.sum_congr rfl fun k _ => ?_
    rw [shapeCast_self]
    rfl
  · refine (ValueIdx.broadcastTo_1b_ab_apply _ _ p q).trans ?_
    rw [shapeCast_self]

end Cert.KernelIdeal.Tile

end
-- ==== Proof.Affine.lean ====
/-
  A dense layer as ONE function of three arrays, entry by entry.

  For activations `x` (8192 rows of 4096 features), a matrix `w` (4096 outputs, each a row of 4096 features) and a
  row of biases `b` (laid out as a 1 × 4096 array), entry (r, o) of the layer's result is

      Σ_k  x[r, k] · w[o, k]   +   b[0, o] :

  row r of the activations against row o of the matrix — the contraction runs along the feature axis of BOTH
  operands, so no transpose is ever formed — plus output o's bias. Everything is read over the extended reals, where
  sums and products are exact; the order in which the 4096 products are added does not matter there (addition of
  extended reals is commutative and associative), which is why a tiled product and a whole product agree.
-/
import Idealize.ShloMosaic.PureOps.Ideal
import Idealize.ShloMosaic.Lib.ValueIdx

noncomputable section

namespace Cert.BinLinear

open Idealize.ShloMosaic Idealize.ShloMosaic.ValueIdx

/-- Entry (r, o) of the layer: row `r` of `x` against row `o` of `w`, plus the bias of output `o`. -/
def affineAt (x : (⟨2, ![8192, 4096]⟩ : Shape).Idx → EReal) (w : (⟨2, ![4096, 4096]⟩ : Shape).Idx → EReal)
    (b : (⟨2, ![1, 4096]⟩ : Shape).Idx → EReal) (r : Fin 8192) (o : Fin 4096) : EReal :=
  (∑ k : Fin 4096, x (ix2 r k) * w (ix2 o k)) + b (ix2 (0 : Fin 1) o)

/-- The layer's whole result array: entry `i` is `affineAt` at `i`'s row and column. -/
def affine (x : (⟨2, ![8192, 4096]⟩ : Shape).Idx → EReal) (w : (⟨2, ![4096, 4096]⟩ : Shape).Idx → EReal)
    (b : (⟨2, ![1, 4096]⟩ : Shape).Idx → EReal) : (⟨2, ![8192, 4096]⟩ : Shape).Idx → EReal :=
  fun i => affineAt x w b (i 0) (i 1)

theorem affine_apply (x : (⟨2, ![8192, 4096]⟩ : Shape).Idx → EReal) (w : (⟨2, ![4096, 4096]⟩ : Shape).Idx → EReal)
    (b : (⟨2, ![1, 4096]⟩ : Shape).Idx → EReal) (r : Fin 8192) (o : Fin 4096) :
    affine x w b (ix2 r o) = affineAt x w b r o := rfl

end Cert.BinLinear

end
-- ==== Proof.Grid.lean ====
/-
  The 4 × 32 grid and its four windows.

  Point (j, i) of the grid — j the block column of the result, i its block row, i running fastest — reads block
  (i, 0) of the activations, block (j, 0) of the matrix, block (0, j) of the bias row, and writes block (i, j) of the
  result. These are finitely many facts about the printed index maps, decided over the 128 points.
-/
import proofs.«176088_j56453050138959_2_alg».proof.Proof.Gen.KernelIdeal.Points

noncomputable section

namespace Cert.KernelIdeal.Grid

open Cert.KernelIdeal Cert.KernelIdeal.Gen Idealize.ShloMosaic Idealize.ShloMosaic.TcCoe Idealize.SL.Sem

theorem origin : (![0, 0] : Fin 2 → Nat) = fun _ => 0 := funext fun a => by fin_cases a <;> rfl

/-- The printed index maps over the grid: the activation window follows the result's block row, the matrix and bias
    windows follow the result's block column, and each keeps to block 0 along the axis it holds whole. -/
theorem index_maps : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every block of the result is some point's. -/
theorem every_block : ∀ (bi : Fin 32) (bj : Fin 4), ∃ t : Fin cfg0.N, win0_3.index t = ![bi.val, bj.val] :=
  (by decide +kernel : ∀ (bi : Fin 32) (bj : Fin 4), ∃ t : Fin grid0.N, win0_3.index t = ![bi.val, bj.val])

end Cert.KernelIdeal.Grid

end
-- ==== Proof.Whole.lean ====
/-
  From tiles to the whole result array.

  The grid has 4 × 32 points; point (j, i) holds rows 256·i … 256·i + 255 of the activations, rows
  1024·j … 1024·j + 1023 of the matrix, entries 1024·j … 1024·j + 1023 of the bias row, and writes the 256 × 1024 tile
  at block (i, j) of the result. The whole feature axis is inside every block, so no point accumulates onto
  another's work: each tile is final when it is written, the 128 tiles are pairwise apart and together they cover
  the 8192 × 4096 result. Entry (256·i + p, 1024·j + q) of the result is therefore entry (p, q) of that point's
  tile — the layer `Cert.BinLinear.affine` of the three operand arrays at that entry.
-/
import proofs.«176088_j56453050138959_2_alg».proof.Proof.Gen.KernelIdeal.Value
import proofs.«176088_j56453050138959_2_alg».proof.Proof.BlockProduct
import proofs.«176088_j56453050138959_2_alg».proof.Proof.Affine
import proofs.«176088_j56453050138959_2_alg».proof.Proof.Grid

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.BinLinear Cert.KernelIdeal.Grid
open Idealize.ShloMosaic.Pipeline (Dat)

variable (m : (ℓ : Loc nD τ sig) → Buf (Elt Ideal) ℓ) (ρ : Dev nD → PrngReg)

/-- One entry of a tile is one entry of the layer, once the three blocks are known to be the operands' rows:
    row `p` of the activation block is row `r` of the activations, row `q` of the matrix block is row `o` of the
    matrix, entry `q` of the bias strip is entry `o` of the bias row. -/
theorem tile_entry (X : (⟨2, ![8192, 4096]⟩ : Shape).Idx → EReal) (W : (⟨2, ![4096, 4096]⟩ : Shape).Idx → EReal)
    (B : (⟨2, ![1, 4096]⟩ : Shape).Idx → EReal)
    (xblk : Vec Ideal S256x4096 .f32) (wblk : Vec Ideal S1024x4096 .bf16) (bblk : Vec Ideal S1x1024 .f32)
    (p : Fin 256) (q : Fin 1024) (r : Fin 8192) (o : Fin 4096)
    (hx : ∀ k : Fin 4096, xblk (ix2 p k) = X (ix2 r k))
    (hw : ∀ k : Fin 4096, wblk (ix2 q k) = W (ix2 o k))
    (hb : bblk (ix2 (0 : Fin 1) q) = B (ix2 (0 : Fin 1) o)) :
    k0_pay1 (F := Ideal) xblk wblk bblk (ix2 p q) = affineAt X W B r o := by
  rw [Tile.tile_at]
  unfold affineAt
  rw [hb]
  exact congrArg (· + B (ix2 (0 : Fin 1) o)) (Finset.sum_congr rfl fun k _ => by rw [hx k, hw k])

/-- The same at an index `y` of the tile and an index `i` of the result, whatever their coordinates are. -/
theorem tile_entry_idx (X : (⟨2, ![8192, 4096]⟩ : Shape).Idx → EReal) (W : (⟨2, ![4096, 4096]⟩ : Shape).Idx → EReal)
    (B : (⟨2, ![1, 4096]⟩ : Shape).Idx → EReal)
    (xblk : Vec Ideal S256x4096 .f32) (wblk : Vec Ideal S1024x4096 .bf16) (bblk : Vec Ideal S1x1024 .f32)
    (y : S256x1024.Idx) (i : S8192x4096.Idx)
    (hx : ∀ k : Fin 4096, xblk (ix2 (n0 := 256) (n1 := 4096) (y 0) k) = X (ix2 (n0 := 8192) (n1 := 4096) (i 0) k))
    (hw : ∀ k : Fin 4096, wblk (ix2 (n0 := 1024) (n1 := 4096) (y 1) k) = W (ix2 (n0 := 4096) (n1 := 4096) (i 1) k))
    (hb : bblk (ix2 (n0 := 1) (n1 := 1024) (0 : Fin 1) (y 1)) = B (ix2 (n0 := 1) (n1 := 4096) (0 : Fin 1) (i 1))) :
    k0_pay1 (F := Ideal) xblk wblk bblk y = affine X W B i :=
  (congrArg (k0_pay1 (F := Ideal) xblk wblk bblk) (eq_ix2 y)).trans
    (tile_entry X W B xblk wblk bblk (y 0) (y 1) (i 0) (i 1) hx hw hb)

/-- WHAT POINT `t` WRITES BACK is block `t` of the layer of the three operand arrays as the region finds them. -/
theorem flushed_eq (c : Dev nD) (t : Fin cfg0.N) :
    (dats m 0 c).flushed 3 t
      = ((cfg0.win 3).blk t).view.read (Elt Ideal) (affine (V m c main_arg0) (V m c main_v1) (V m c main_v2)) := by
  rw [Value.flushed3]
  unfold out0_3
  rw [View.canon_unit_zero origin]
  simp only [View.ld_unit_zero (S := S256x4096) origin, View.ld_unit_zero (S := S1024x4096) origin, View.ld_unit_zero (S := S1x1024) origin]
  obtain ⟨e0, e1, e2, e3, e4, e5, -, -⟩ := index_maps t
  funext j
  refine tile_entry_idx (V m c main_arg0) (V m c main_v1) (V m c main_v2) (iblk m c 0 t) (iblk m c 1 t) (iblk m c 2 t)
    j (((cfg0.win 3).blk t).view.emb j) (fun k => ?_) (fun k => ?_) ?_
  · show V m c main_arg0 (((cfg0.win 0).blk t).view.emb (ix2 (n0 := 256) (n1 := 4096) (j 0) k)) = V m c main_arg0 _
    refine congrArg (V m c main_arg0) (funext fun a => Fin.ext ?_)
    match a with
    | ⟨0, _⟩ => show win0_0.index t (0 : Fin 2) * 256 + 1 * (j 0).val = win0_3.index t (0 : Fin 2) * 256 + 1 * (j 0).val; rw [e0]
    | ⟨1, _⟩ => show win0_0.index t (1 : Fin 2) * 4096 + 1 * k.val = k.val; rw [e1]; omega
  · show V m c main_v1 (((cfg0.win 1).blk t).view.emb (ix2 (n0 := 1024) (n1 := 4096) (j 1) k)) = V m c main_v1 _
    refine congrArg (V m c main_v1) (funext fun a => Fin.ext ?_)
    match a with
    | ⟨0, _⟩ => show win0_1.index t (0 : Fin 2) * 1024 + 1 * (j 1).val = win0_3.index t (1 : Fin 2) * 1024 + 1 * (j 1).val; rw [e2]
    | ⟨1, _⟩ => show win0_1.index t (1 : Fin 2) * 4096 + 1 * k.val = k.val; rw [e3]; omega
  · show V m c main_v2 (((cfg0.win 2).blk t).view.emb (ix2 (n0 := 1) (n1 := 1024) (0 : Fin 1) (j 1))) = V m c main_v2 _
    refine congrArg (V m c main_v2) (funext fun a => Fin.ext ?_)
    match a with
    | ⟨0, _⟩ => show win0_2.index t (0 : Fin 2) * 1 + 1 * 0 = 0; rw [e4]
    | ⟨1, _⟩ => show win0_2.index t (1 : Fin 2) * 1024 + 1 * (j 1).val = win0_3.index t (1 : Fin 2) * 1024 + 1 * (j 1).val; rw [e5]

/-- An index of the result is in point `t`'s block iff each coordinate is in the block's range on its axis. -/
theorem mem_block (t : Fin cfg0.N) (i : S8192x4096.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v3).slice (win0_3.rect t)).set ↔ _
  rw [View.set_slice_whole, Rect.mem_set_unit]
  exact Iff.rfl

/-- The tiles cover the result: entry (r, o) lies in the block of the point whose block row is r / 256 and whose
    block column is o / 1024. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := every_block ⟨(i 0).val / 256, by omega⟩ ⟨(i 1).val / 1024, by omega⟩
  have q0 : win0_3.index t (0 : Fin 2) = (i 0).val / 256 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- THE RESULT ARRAY after the run is the layer of the three operand arrays as the region finds them. -/
theorem result_eq (c : Dev nD) :
    (dats m 0 c).arrAt 3 cfg0.N = affine (V m c main_arg0) (V m c main_v1) (V m c main_v2) :=
  (dats m 0 c).arrAt_eq_of_cover 3 (affine (V m c main_arg0) (V m c main_v1) (V m c main_v2)) (fun t _ => flushed_eq m c t) covered

end Cert.KernelIdeal.Whole

end
-- ==== Proof.KernelRun.lean ====
/-
  The kernel's run, read: its result array is the dense layer of its three arguments.

  The tiles assemble to the layer of the three operand arrays as the region finds them (the module on tiles); the
  region finds the activations as passed, the matrix signed and narrowed, the bias as one row (the module on the
  region's entry). Put together: after every fair execution the result array holds, at entry (r, o),
  Σ_k x[r, k] · sign(w[o, k]) + b[o], and the three arguments are as they were.
-/
import proofs.«176088_j56453050138959_2_alg».proof.Proof.Gen.KernelIdeal.Value
import proofs.«176088_j56453050138959_2_alg».proof.Proof.Entry
import proofs.«176088_j56453050138959_2_alg».proof.Proof.Whole

noncomputable section

namespace Cert.KernelIdeal.Layer

open Cert.KernelIdeal Cert.KernelIdeal.Gen Idealize.ShloMosaic Idealize.ShloMosaic.TcCoe Idealize.SL.Sem
open Cert.BinLinear

variable (m : (ℓ : Loc nD τ sig) → Buf (Elt Ideal) ℓ) (ρ : Dev nD → PrngReg)

/-- The result array after the run, as the layer of the ARGUMENTS: the activations, the weight signed (and narrowed),
    the bias re-laid as a row. -/
theorem result_eq (c : Dev nD) :
    (dats m 0 c).arrAt 3 cfg0.N
      = affine (m ((c : Thread nD τ).loc main_arg0))
          (truncf (F := Ideal) .bf16 (Host.sign (F := Ideal) (m ((c : Thread nD τ).loc main_arg1) : FVec Ideal S4096x4096 .f32)) bitsLt_bf16_f32)
          (shapeCast S1x4096 (m ((c : Thread nD τ).loc main_arg2) : FVec Ideal S4096 .f32) shapeCasts_S4096_S1x4096) := by
  rw [Whole.result_eq m c, V_main_arg0 m c, Entry.matrix_eq m c, Entry.bias_eq m c]

/-- Every fair execution of the kernel's program ends with the result array at the layer of the arguments and the
    arguments unchanged. -/
theorem run : θ_run defs (onTc (τ := τ) (main (F := Ideal))) ⟨m, fun _ => 0, ρ⟩ fun r => ∀ c : Dev nD,
      r.2.mem ((c : Thread nD τ).loc main_v3)
        = affine (m ((c : Thread nD τ).loc main_arg0))
            (truncf (F := Ideal) .bf16 (Host.sign (F := Ideal) (m ((c : Thread nD τ).loc main_arg1) : FVec Ideal S4096x4096 .f32)) bitsLt_bf16_f32)
            (shapeCast S1x4096 (m ((c : Thread nD τ).loc main_arg2) : FVec Ideal S4096 .f32) shapeCasts_S4096_S1x4096)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩) (Cert.KernelIdeal.Value.run_blocks m ρ)

end Cert.KernelIdeal.Layer

end
-- ==== Proof.Reference.lean ====
/-
  The reference program, read entry by entry, is the dense layer `Cert.BinLinear.affine`.

  The reference takes the sign of the weight matrix, contracts the activations with it along the feature axis of
  both (one whole product, no tiling), and adds the bias vector broadcast first to a 1 × 4096 row and then down the
  8192 rows. Entry (r, o) is therefore  Σ_k x[r, k] · sign(w[o, k]) + b[o]  — the layer applied to the activations,
  the signed matrix and the bias laid out as a row. (Narrowing the signed matrix changes nothing over the extended
  reals, and a vector re-laid as a single row holds entry o at (0, o).)
-/
import proofs.«176088_j56453050138959_2_alg».proof.Proof.Gen.ReferenceIdeal.Read
import proofs.«176088_j56453050138959_2_alg».proof.Proof.Affine
import Idealize.ShloMosaic.Lib.ValueLayout

noncomputable section

namespace Cert.ReferenceIdeal.Layer

open Cert.ReferenceIdeal Cert.ReferenceIdeal.Gen Cert.ReferenceIdeal.Read Idealize.ShloMosaic Idealize.ShloMosaic.ValueIdx
open Cert.BinLinear

/-- The reference's result is the layer of its three arguments: the matrix signed (and narrowed, which is the
    identity here), the bias as a row. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (hb : FTy.bits .bf16 < FTy.bits .f32) (hc : S4096.ShapeCasts S1x4096) :
    val_main_v4 (F := Ideal) x0 x1 x2
      = affine x0 (truncf (F := Ideal) .bf16 (Host.sign (F := Ideal) (x1 : FVec Ideal S4096x4096 .f32)) hb) (shapeCast S1x4096 (x2 : FVec Ideal S4096 .f32) hc) := by
  funext i
  obtain ⟨r, o, rfl⟩ : ∃ (r : Fin 8192) (o : Fin 4096), i = ix2 r o := ⟨i 0, i 1, eq_ix2 i⟩
  rw [val_main_v4_apply, val_main_v1_apply, val_main_v3_apply, val_main_v2_apply, affine_apply]
  unfold affineAt
  have e1 : ∀ k : Fin 4096, lidx_main_v1 (ix2 r o) k = ix2 r k := fun k => funext fun a => Fin.ext (by
    match a with
    | ⟨0, _⟩ => rfl
    | ⟨1, _⟩ => rfl)
  have e2 : ∀ k : Fin 4096, ridx_main_v1 (ix2 r o) k = ix2 o k := fun k => funext fun a => Fin.ext (by
    match a with
    | ⟨0, _⟩ => rfl
    | ⟨1, _⟩ => rfl)
  have e3 : idx_main_v2 (idx_main_v3 (ix2 r o)) = ix1 o := funext fun a => Fin.ext (by
    match a with
    | ⟨0, _⟩ => rfl)
  simp only [e1, e2, e3]
  rw [shapeCast_a_1a_apply]
  exact congrArg₂ (· + ·) (Finset.sum_congr rfl fun k _ => rfl) rfl

end Cert.ReferenceIdeal.Layer

end
-- ==== Proof.lean ====
/-
  A dense layer with a sign-binarised weight: the tiled kernel against the one-line reference.

  Both programs compute, for activations x (8192 × 4096), a weight w (4096 × 4096) and a bias b (4096),

      out[r, o]  =  Σ_k  x[r, k] · sign(w[o, k])  +  b[o].

  The kernel takes the sign on the host, narrows it to the matrix unit's input format, and runs a 4 × 32 grid whose
  point (j, i) multiplies a 256-row block of activations with a 1024-row block of the signed matrix — the whole
  feature axis inside the block, so nothing is accumulated across points — adds the matching strip of the bias and
  writes one 256 × 1024 tile of the result. The reference takes the sign, forms one whole product and adds the bias
  broadcast down the rows.

  Over the extended reals the two narrowings (of the activations inside the body, of the signed matrix on the
  host) are the identity, a product accumulated into zero is the plain sum of its 4096 terms, and a sum of extended
  reals does not depend on how it is grouped. So every tile entry is already the reference's entry; the tiles are
  pairwise apart and cover the result. No cancellation or distribution is used, hence no use of the finiteness of
  the inputs: the two results agree on every input.

  The modules: the layer as one function (Affine); a tile entry by entry (BlockProduct); the tiles assembled into the
  whole array (Whole); what the host prepares before the grid runs (Entry); the kernel's run read back (KernelRun);
  the reference read entry by entry (Reference). The kernel's idealisation rewrote no operation, so that it
  preserves the kernel's meaning holds with nothing to show.
-/
import proofs.«176088_j56453050138959_2_alg».proof.Defs
import proofs.«176088_j56453050138959_2_alg».proof.Proof.Gen.Kernel
import proofs.«176088_j56453050138959_2_alg».proof.Proof.Gen.Kernel.Skeleton
import proofs.«176088_j56453050138959_2_alg».proof.Proof.Gen.Kernel.Launch
import proofs.«176088_j56453050138959_2_alg».proof.Proof.Gen.Kernel.Points
import proofs.«176088_j56453050138959_2_alg».proof.Proof.Gen.Kernel.Frame
import proofs.«176088_j56453050138959_2_alg».proof.Proof.Gen.KernelIdeal
import proofs.«176088_j56453050138959_2_alg».proof.Proof.Gen.KernelIdeal.Skeleton
import proofs.«176088_j56453050138959_2_alg».proof.Proof.Gen.KernelIdeal.Launch
import proofs.«176088_j56453050138959_2_alg».proof.Proof.Gen.KernelIdeal.Points
import proofs.«176088_j56453050138959_2_alg».proof.Proof.Gen.KernelIdeal.Frame
import proofs.«176088_j56453050138959_2_alg».proof.Proof.Gen.ReferenceIdeal
import proofs.«176088_j56453050138959_2_alg».proof.Proof.Gen.KernelIdeal.Value
import proofs.«176088_j56453050138959_2_alg».proof.Proof.Gen.ReferenceIdeal.Run
import proofs.«176088_j56453050138959_2_alg».proof.Proof.Gen.ReferenceIdeal.Read
import proofs.«176088_j56453050138959_2_alg».proof.Proof.Gen.Pre_finite_inputs
import proofs.«176088_j56453050138959_2_alg».proof.Proof.KernelRun
import proofs.«176088_j56453050138959_2_alg».proof.Proof.Reference
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From arguments that agree, both programs end with the same result array: the layer
    Σ_k x[r, k] · sign(w[o, k]) + b[o] of the arguments. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq,
    Cert.ReferenceIdeal.Layer.result_eq _ _ _ Cert.KernelIdeal.Gen.bitsLt_bf16_f32 Cert.KernelIdeal.Gen.shapeCasts_S4096_S1x4096,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
